-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S262144x256 .f32) (main_arg1 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S262144x256 : Shape := ⟨2, ![262144, 256]⟩
abbrev S256x256 : Shape := ⟨2, ![256, 256]⟩
abbrev S_ : Shape := ⟨0, ![]⟩
abbrev S256 : Shape := ⟨1, ![256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 9
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S256x256, .f32⟩
  | .hbm, ⟨5, _⟩ => ⟨S_, .f32⟩
  | .hbm, ⟨6, _⟩ => ⟨S256, .f32⟩
  | .hbm, ⟨7, _⟩ => ⟨S1x256, .f32⟩
  | .hbm, ⟨8, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  bitsLt_bf16_f32 : FTy.bits .bf16 < FTy.bits .f32
  reducesTo_S256x256_S256_d1 : S256x256.ReducesTo [1] S256
  h_S_ : 0 < S_.numel
  bcast_S256_S1x256_1 : S256.BroadcastsInDim S1x256 (![1] : Fin 1 → Fin S1x256.rank)
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x256_S4096 : S4096x256.Reduces [1] S4096
  shapeCasts_S4096_S4096x1 : S4096.ShapeCasts S4096x1
  broadcasts_S4096x1_S4096x256 : S4096x1.Broadcasts S4096x256
  broadcasts_S1x256_S4096x256 : S1x256.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S_ : Shape := ⟨0, ![]⟩
abbrev S262144 : Shape := ⟨1, ![262144]⟩
abbrev S262144x1 : Shape := ⟨2, ![262144, 1]⟩
abbrev S256 : Shape := ⟨1, ![256]⟩
abbrev S1x256 : Shape := ⟨2, ![1, 256]⟩

abbrev nBuf : Space → Nat
  | .hbm => 35
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S262144x256, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S262144x256, .f32⟩
  | .hbm, ⟨11, _⟩ => ⟨S_, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S262144x256, .f32⟩
  | .hbm, ⟨17, _⟩ => ⟨S262144x256, .f32⟩
  | .hbm, ⟨18, _⟩ => ⟨S_, .f32⟩
  | .hbm, ⟨19, _⟩ => ⟨S262144x256, .f32⟩
  | .hbm, ⟨20, _⟩ => ⟨S262144x256, .f32⟩
  | .hbm, ⟨21, _⟩ => ⟨S_, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x256, .f32⟩
  | .hbm, ⟨26, _⟩ => ⟨S262144x256, .f32⟩
  | .hbm, ⟨27, _⟩ => ⟨S_, .f32⟩
  | .hbm, ⟨28, _⟩ => ⟨S262144x256, .f32⟩
  | .hbm, ⟨29, _⟩ => ⟨S262144x256, .f32⟩
  | .hbm, ⟨30, _⟩ => ⟨S_, .f32⟩
  | .hbm, ⟨31, _⟩ => ⟨S262144, .f32⟩
  | .hbm, ⟨32, _⟩ => ⟨S262144x1, .f32⟩
  | .hbm, ⟨33, _⟩ => ⟨S262144x256, .f32⟩
  | .hbm, ⟨34, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S256x256_S256_d1 : S256x256.ReducesTo [1] S256
  bcast_S256_S1x256_1 : S256.BroadcastsInDim S1x256 (![1] : Fin 1 → Fin S1x256.rank)
  bcast_S_S262144x256 : S_.BroadcastsInDim S262144x256 (![] : Fin 0 → Fin S262144x256.rank)
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.LibPowOne.lean ====
/-
  The power with exponent one, on the extended reals.

  The single-precision word 0x3F800000 is the real number 1, and raising any extended real to the power 1 gives it
  back: −∞ to any power is −∞ by convention, +∞ to a positive power is +∞, and a real base x to the real power 1 is x
  whatever the sign of x.  So a program that writes q ** 1.0 computes q, with no condition on q.
-/
import Idealize.ShloMosaic.PureOps.Ideal

noncomputable section

namespace Cert.LibPowOne

open Idealize.ShloMosaic

/-- The word 0x3F800000 has sign 0, biased exponent 127 and mantissa 0: the real number 1. -/
theorem ofBits_one_f32 : Ideal.ofBits .f32 0x3F800000#32 = 1 := by
  simp [Ideal.ofBits, Ideal.ieee, -EReal.coe_mul]; norm_num

/-- Raising to the power 1 changes nothing, on every extended real: −∞ stays −∞, +∞ to a positive power is +∞, and
    on a real base it is the real power x¹ = x (whatever the sign of x). -/
theorem pow_one (q : EReal) : Ideal.pow q 1 = q := by
  rw [← EReal.coe_one]
  induction q using EReal.rec with
  | bot => rfl
  | top =>
    rw [Ideal.pow_top, if_pos (by exact_mod_cast one_pos)]
  | coe x =>
    rw [Ideal.pow_coe_coe]
    show ((x ^ (1 : ℝ) : ℝ) : EReal) = x
    rw [Real.rpow_one]

/-- The same with the exponent spelt as the single-precision word of 1.0. -/
theorem pow_ofBits_one_f32 (q : EReal) : Ideal.pow q (Ideal.ofBits .f32 0x3F800000#32) = q := by
  rw [ofBits_one_f32]
  exact pow_one q

end Cert.LibPowOne

end
-- ==== Proof.SoftAssign.lean ====
/-
  Soft assignment of points to cluster centres, on the extended reals.

  For a point x (a row of 256 coordinates) and 256 centres c_0 … c_255, the squared distance to centre o is expanded as
  |x|² − 2·⟨x, c_o⟩ + |c_o|², the weight of centre o is the Student-t kernel with one degree of freedom,
  1 / (1 + d² / 1), and the assignment is the weight divided by the sum of the point's 256 weights.  Everything is
  written over the three families of sums — |x|², ⟨x, c_o⟩, |c_o|² — so that a program that forms those sums in any
  way computes the assignment as soon as it computes the sums.

  The words 1.0 and 2.0 are kept as words: both programs spell the same ones, so their values are never needed,
  except where one program raises a weight to the power 1.0 — there the word's value is the real number 1, and a
  power with exponent 1 is the identity on every extended real, the two infinities included.
-/
import proofs.«133006_j21105469293054_2_alg».proof.Proof.LibPowOne
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-- The word of the single-precision 1.0. -/
abbrev one : EReal := Ideal.ofBits .f32 0x3F800000#32

/-- The word of the single-precision 2.0. -/
abbrev two : EReal := Ideal.ofBits .f32 0x40000000#32

/-- The word of 1.0 is the real number 1. -/
theorem one_eq : one = 1 := Cert.LibPowOne.ofBits_one_f32

/-- Raising to the power 1.0 changes nothing, on every extended real. -/
theorem pow_one (q : EReal) : Ideal.pow q one = q := Cert.LibPowOne.pow_ofBits_one_f32 q

/-- The weight of one centre from the point's squared norm, its inner product with the centre, and the centre's
    squared norm: 1 / (1 + (|x|² − 2⟨x, c⟩ + |c|²) / 1). -/
def weight (xs cr cs : EReal) : EReal :=
  Ideal.div one (one + Ideal.div (xs - two * cr + cs) one)

/-- The assignment of a point to centre k: its weight over the sum of the point's weights to all 256 centres. -/
def assign (xs : EReal) (cr cs : Fin 256 → EReal) (k : Fin 256) : EReal :=
  Ideal.div (weight xs (cr k) (cs k)) (∑ o : Fin 256, weight xs (cr o) (cs o))

/-- The whole table of assignments: entry (p, k) is the assignment of point p (row p of x) to centre k (row k of c),
    with |x_p|², ⟨x_p, c_o⟩ and |c_o|² each the plain sum over the 256 coordinates. -/
def table (x : (⟨2, ![262144, 256]⟩ : Shape).Idx → EReal) (c : (⟨2, ![256, 256]⟩ : Shape).Idx → EReal) :
    (⟨2, ![262144, 256]⟩ : Shape).Idx → EReal := fun i =>
  assign (∑ j : Fin 256, x (ix2 (i 0) j) * x (ix2 (i 0) j))
    (fun o => ∑ j : Fin 256, x (ix2 (i 0) j) * c (ix2 o j))
    (fun o => ∑ j : Fin 256, c (ix2 o j) * c (ix2 o j)) (i 1)

end Cert.SoftAssign

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.BodyValue.lean ====
/-
  What the kernel body computes on one block of 4096 points, entry by entry.

  The body loads a block x of 4096 points, the 256 × 256 matrix ct whose column o is centre o, and the row csq of the
  centres' squared norms.  Its product x · ct has entry (p, o) the inner product of point p with centre o; the sum of
  each row of x ∘ x, kept as a column and spread back over the row, is |x_p|²; csq spread over the rows is |c_o|².
  From these it forms the weights pointwise, sums each row of weights the same way, and divides.  So entry (p, k) of the
  stored block is the assignment of point p of the block to centre k, as a function of that point's row alone.
-/
import proofs.«133006_j21105469293054_2_alg».proof.Proof.Gen.KernelIdeal.Skeleton
import proofs.«133006_j21105469293054_2_alg».proof.Proof.SoftAssign
import proofs.«133006_j21105469293054_2_alg».proof.Proof.LibKeepdims
import proofs.«133006_j21105469293054_2_alg».proof.Proof.LibRowReduce
import proofs.«133006_j21105469293054_2_alg».proof.Proof.LibMatmulRows
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx Cert.SoftAssign

/-! ## The product's operand indices -/

/-- The left operand's row is the output's row. -/
theorem dot_l0 (j : S4096x256.Idx) (q : dot_S4096x256_S256x256_S4096x256_1_0_0_1_n_n.contr.Idx) :
    (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

/-- The left operand's column is the contracted coordinate. -/
theorem dot_l1 (j : S4096x256.Idx) (q : dot_S4096x256_S256x256_S4096x256_1_0_0_1_n_n.contr.Idx) :
    (dot_S4096x256_S256x256_S4096x256_1_0_0_1_n_n.lhsIdx j q 1).val = (q ⟨0, by decide⟩).val :=
  dot_S4096x256_S256x256_S4096x256_1_0_0_1_n_n.lhsIdx_val_of_single rfl j q

/-- The right operand's row is the contracted coordinate. -/
theorem dot_r0 (j : S4096x256.Idx) (q : dot_S4096x256_S256x256_S4096x256_1_0_0_1_n_n.contr.Idx) :
    (dot_S4096x256_S256x256_S4096x256_1_0_0_1_n_n.rhsIdx j q 0).val = (q ⟨0, by decide⟩).val :=
  dot_S4096x256_S256x256_S4096x256_1_0_0_1_n_n.rhsIdx_val_of_single rfl j q

/-- The right operand's column is the output's column. -/
theorem dot_r1 (j : S4096x256.Idx) (q : dot_S4096x256_S256x256_S4096x256_1_0_0_1_n_n.contr.Idx) :
    (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-! ## The three pieces that are not pointwise -/

/-- The product of the block (rounded to the narrow format, which changes nothing on the extended reals) with the
    centre matrix, into the zero accumulator: entry (p, o) is the sum over the coordinates j of x (p, j) · ct (j, o). -/
theorem product_at (x0 : FVec Ideal S4096x256 .f32) (x1 : FVec Ideal S256x256 .bf16) (p : Fin 4096) (o : Fin 256) :
    matmul dot_S4096x256_S256x256_S4096x256_1_0_0_1_n_n none (truncf .bf16 x0 bitsLt_bf16_f32)
        (shapeCast S256x256 x1 shapeCasts_S256x256_S256x256) (constant S4096x256 .f32 0x00000000#32) (ix2 p o)
      = ∑ j : Fin 256, (x0 (ix2 p j) : EReal) * x1 (ix2 j o) := by
  rw [shapeCast_self]
  exact Cert.LibMatmulRows.matmul_rows_apply dot_S4096x256_S256x256_S4096x256_1_0_0_1_n_n rfl rfl
    dot_l0 dot_l1 dot_r0 dot_r1 none (truncf .bf16 x0 bitsLt_bf16_f32) x1 p o

/-- The sum of each row, kept as a column and spread back over the row: entry (p, o) is the sum of row p. -/
theorem rowsum_spread (src : FVec Ideal S4096x256 .f32) (p : Fin 4096) (o : Fin 256) :
    broadcastTo S4096x256
        (shapeCast S4096x1 (multiReduction .add [1] S4096 src 0x00000000#32 reduces_S4096x256_S4096 (.inl rfl) rfl)
          shapeCasts_S4096_S4096x1)
        broadcasts_S4096x1_S4096x256 (ix2 p o)
      = ∑ j : Fin 256, src (ix2 p j) :=
  (Cert.LibKeepdims.broadcastTo_a1_ab_apply _ broadcasts_S4096x1_S4096x256 p o).trans
    ((Cert.LibKeepdims.shapeCast_a_a1_apply _ shapeCasts_S4096_S4096x1 p 0).trans
      (Cert.LibRowReduce.multiReduction_add_row src _ reduces_S4096x256_S4096 (.inl rfl) rfl p))

/-- The one row of squared norms spread over the block's rows: entry (p, o) is the row's entry o. -/
theorem row_spread (x2 : FVec Ideal S1x256 .f32) (p : Fin 4096) (o : Fin 256) :
    broadcastTo S4096x256 (shapeCast S1x256 x2 shapeCasts_S1x256_S1x256) broadcasts_S1x256_S4096x256 (ix2 p o)
      = x2 (ix2 (0 : Fin 1) o) := by
  rw [shapeCast_self]
  exact broadcastTo_1b_ab_apply x2 broadcasts_S1x256_S4096x256 p o

/-! ## The stored block -/

/-- Entry (p, k) of the block the body stores: the assignment of the block's point p to centre k, from that point's
    squared norm, its inner products with the columns of ct, and the row of squared norms. -/
theorem stored_at (x0 : Vec Ideal S4096x256 .f32) (x1 : Vec Ideal S256x256 .bf16) (x2 : Vec Ideal S1x256 .f32)
    (p : Fin 4096) (k : Fin 256) :
    k0_pay1 (F := Ideal) x0 x1 x2 (ix2 p k)
      = assign (∑ j : Fin 256, (x0 (ix2 p j) : EReal) * x0 (ix2 p j))
          (fun o => ∑ j : Fin 256, (x0 (ix2 p j) : EReal) * x1 (ix2 j o))
          (fun o => x2 (ix2 (0 : Fin 1) o)) k := by
  unfold k0_pay1 assign
  simp only [divf_apply]
  rw [rowsum_spread]
  refine congrArg₂ Ideal.div ?_ (Finset.sum_congr rfl fun o _ => ?_) <;>
  · simp only [divf_apply, addf_apply, subf_apply, mulf_apply, broadcast_apply, product_at, row_spread]
    rw [rowsum_spread]
    rfl

end Cert.KernelIdeal.BodyValue

end
-- ==== Proof.HostPrefix.lean ====
/-
  What the two arrays prepared before the kernel launch hold, entry by entry.

  Before the launch the host transposes the centre matrix c (and rounds it to the narrow format, which changes nothing
  on the extended reals), so the array behind the kernel's second window has entry (j, o) equal to c (o, j): its column
  o is centre o.  It also squares c entrywise, sums each row starting from the word 0.0, and lays the 256 sums as one
  row, so the array behind the third window has entry (0, o) equal to the sum over j of c (o, j)², the squared norm of
  centre o.
-/
import proofs.«133006_j21105469293054_2_alg».proof.Proof.Gen.KernelIdeal.Frame
import proofs.«133006_j21105469293054_2_alg».proof.Proof.LibRowReduce
import Idealize.ShloMosaic.Lib.StableHlo.Run
import Idealize.ShloMosaic.Lib.ValueLayout
import Idealize.ShloMosaic.Lib.Pipeline.Value
import Idealize.ShloMosaic.PureOps.Ideal.Laws

noncomputable section

namespace Cert.KernelIdeal.HostPrefix

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The centre matrix as launched, as a function of its index. -/
abbrev centres (c : Dev nD) : S256x256.Idx → EReal := m ((c : Thread nD τ).loc main_arg1)

/-- The array behind the second window when the region is entered. -/
abbrev centresT (c : Dev nD) : S256x256.Idx → EReal := V m c main_v1

/-- The array behind the third window when the region is entered. -/
abbrev normRow (c : Dev nD) : S1x256.Idx → EReal := V m c main_v4

/-- The array behind the second window: the centre matrix transposed, then rounded. -/
theorem centresT_eq (c : Dev nD) :
    centresT m c
      = truncf (F := Ideal) .bf16 (transpose S256x256 [1, 0] (centres m c) transposes_S256x256_S256x256_1_0)
          bitsLt_bf16_f32 := by
  dsimp only [centresT, centres, Gen.V, Gen.hostOps0]; after_results

/-- Its entry (j, o) is c (o, j). -/
theorem centresT_at (c : Dev nD) (j o : Fin 256) : centresT m c (ix2 j o) = centres m c (ix2 o j) :=
  (congrFun (centresT_eq m c) (ix2 j o)).trans
    (transpose_ix2_apply (centres m c) transposes_S256x256_S256x256_1_0 j o)

/-- The array behind the third window: the row sums of c ∘ c from the word 0.0, laid as one row. -/
theorem normRow_eq (c : Dev nD) :
    normRow m c
      = broadcastInDim S1x256 ![1] bcast_S256_S1x256_1
          (Host.reduceAdd (F := Ideal) (mulf (centres m c) (centres m c))
            (constant (F := Ideal) S_ .f32 0x00000000#32) reducesTo_S256x256_S256_d1 h_S_) := by
  dsimp only [normRow, centres, Gen.V, Gen.hostOps0]; after_results

/-- Its entry (0, o) is the squared norm of centre o. -/
theorem normRow_at (c : Dev nD) (o : Fin 256) :
    normRow m c (ix2 (0 : Fin 1) o) = ∑ j : Fin 256, centres m c (ix2 o j) * centres m c (ix2 o j) := by
  refine (congrFun (normRow_eq m c) (ix2 (0 : Fin 1) o)).trans ?_
  refine (broadcastInDim_apply _ bcast_S256_S1x256_1 _ (ix2 (0 : Fin 1) o) (ix1 o) (fun a => match a with
    | ⟨0, _⟩ => by show o.val = if (256 : Nat) = 1 then 0 else o.val; rw [if_neg (by decide)])).trans ?_
  refine (Cert.LibRowReduce.hostReduceAdd_row _ _ reducesTo_S256x256_S256_d1 (by decide) h_S_ o).trans ?_
  show Ideal.ofBits .f32 0x00000000#32 + _ = _
  rw [Ideal.ofBits_zero_f32, zero_add]
  rfl

end Cert.KernelIdeal.HostPrefix

end
-- ==== Proof.KernelValue.lean ====
/-
  From the blocks the grid points write to the whole table of assignments.

  The grid has 64 points.  Point t reads rows 4096·t … 4096·t + 4095 of the point matrix x (its index map is (t, 0) in
  blocks of 4096 × 256), the whole transposed centre matrix and the whole row of squared norms (index map (0, 0), one
  block each), and writes rows 4096·t … 4096·t + 4095 of the result.  Entry (p, k) of what it writes is the assignment
  of point 4096·t + p to centre k, which depends on row 4096·t + p of x alone: so the written block is the same rows of
  the whole table.  Every row r of the result lies in the block of point r / 4096, so the blocks cover the array, and
  the array after the run is the table.
-/
import proofs.«133006_j21105469293054_2_alg».proof.Proof.Gen.KernelIdeal.Value
import proofs.«133006_j21105469293054_2_alg».proof.Proof.BodyValue
import proofs.«133006_j21105469293054_2_alg».proof.Proof.HostPrefix
import proofs.«133006_j21105469293054_2_alg».proof.Proof.SoftAssign
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.KernelIdeal.Value Cert.KernelIdeal.BodyValue Cert.KernelIdeal.HostPrefix
open Cert.SoftAssign

variable (m : (ℓ : Loc nD τ sig) → Buf (Elt Ideal) ℓ) (ρ : Dev nD → PrngReg)

/-- The point matrix as launched, as a function of its index. -/
abbrev points (c : Dev nD) : S262144x256.Idx → EReal := m ((c : Thread nD τ).loc main_arg0)

/-! ## A stored block against the table, over plain arrays -/

/-- If a block's point p is row r of X, the centre block is C transposed and the norm row holds the squared norms of the
    rows of C, then entry (p, k) of the stored block is entry (r, k) of the table of X and C. -/
theorem block_entry (x0 : Vec Ideal S4096x256 .f32) (x1 : Vec Ideal S256x256 .bf16) (x2 : Vec Ideal S1x256 .f32)
    (X : S262144x256.Idx → EReal) (C : S256x256.Idx → EReal) (p : Fin 4096) (k : Fin 256) (r : Fin 262144)
    (hx : ∀ j : Fin 256, (x0 (ix2 p j) : EReal) = X (ix2 r j))
    (hc : ∀ j o : Fin 256, (x1 (ix2 j o) : EReal) = C (ix2 o j))
    (hn : ∀ o : Fin 256, (x2 (ix2 (0 : Fin 1) o) : EReal) = ∑ j : Fin 256, C (ix2 o j) * C (ix2 o j)) :
    k0_pay1 (F := Ideal) x0 x1 x2 (ix2 p k) = table X C (ix2 r k) := by
  rw [stored_at]
  unfold table
  simp only [hx, hc, hn]

/-! ## The index maps, decided over the grid -/

theorem hz : (![0, 0] : Fin 2 → Nat) = fun _ => 0 := funext fun a => by fin_cases a <;> rfl

/-- The point matrix and the result move with the grid point along the rows; the centre matrix and the norm row stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks as parts of their arrays -/

/-- The block of the point matrix at grid point t: its entry y is entry i of x whenever i is 4096·t rows below y. -/
theorem points_blk (c : Dev nD) (t : Fin cfg0.N) (y : S4096x256.Idx) (i : S262144x256.Idx)
    (h0 : (i 0).val = t.val * 4096 + (y 0).val) (h1 : (i 1).val = (y 1).val) :
    (iblk m c 0 t : Vec Ideal S4096x256 .f32) y = points m c i := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * (y 0).val = (i 0).val; rw [e0, h0]; omega
  | ⟨1, _⟩ => show win0_0.index t (1 : Fin 2) * 256 + 1 * (y 1).val = (i 1).val; rw [e1, h1]; omega

/-- The centre block at any grid point is the whole transposed centre matrix. -/
theorem centresT_blk (c : Dev nD) (t : Fin cfg0.N) (y : S256x256.Idx) :
    (iblk m c 1 t : Vec Ideal S256x256 .bf16) y = centresT m c y := by
  obtain ⟨-, -, e2, e3, -⟩ := index_facts t
  unfold iblk
  rw [View.read_apply]
  show V m c main_v1 _ = V m c main_v1 y
  refine congrArg _ (funext fun a => Fin.ext ?_)
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The norm block at any grid point is the whole row of squared norms. -/
theorem normRow_blk (c : Dev nD) (t : Fin cfg0.N) (y : S1x256.Idx) :
    (iblk m c 2 t : Vec Ideal S1x256 .f32) y = normRow m c y := by
  obtain ⟨-, -, -, -, e4, e5, -⟩ := index_facts t
  unfold iblk
  rw [View.read_apply]
  show V m c main_v4 _ = V m c main_v4 y
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 256 + 1 * (y 1).val = (y 1).val; rw [e5]; omega

/-! ## What a grid point writes back -/

/-- Grid point t writes back its block of the table of assignments. -/
theorem flushed_eq (c : Dev nD) (t : Fin cfg0.N) :
    (dats m 0 c).flushed 3 t
      = ((cfg0.win 3).blk t).view.read (Elt Ideal) (table (points m c) (centres m c)) := by
  rw [flushed3]
  unfold out0_3
  rw [View.canon_unit_zero hz]
  simp only [View.ld_unit_zero (S := S4096x256) hz, View.ld_unit_zero (S := S256x256) hz,
    View.ld_unit_zero (S := S1x256) hz]
  have hN : cfg0.N = 64 := N_0
  obtain ⟨-, -, -, -, -, -, e6, e7⟩ := index_facts t
  refine funext fun (y : S4096x256.Idx) => ?_
  obtain ⟨p, k, rfl⟩ : ∃ (p : Fin 4096) (k : Fin 256), y = ix2 p k := ⟨y 0, y 1, eq_ix2 y⟩
  have hr : t.val * 4096 + p.val < 262144 := by have := t.isLt; have := p.isLt; omega
  show k0_pay1 (F := Ideal) (iblk m c 0 t) (iblk m c 1 t) (iblk m c 2 t) (ix2 p k)
    = table (points m c) (centres m c) (((cfg0.win 3).blk t).view.emb (ix2 p k))
  have hemb : ((cfg0.win 3).blk t).view.emb (ix2 p k) = ix2 (⟨t.val * 4096 + p.val, hr⟩ : Fin 262144) k :=
    funext fun a => Fin.ext (by
      match a with
      | ⟨0, _⟩ => show win0_3.index t (0 : Fin 2) * 4096 + 1 * p.val = t.val * 4096 + p.val; rw [e6]; omega
      | ⟨1, _⟩ => show win0_3.index t (1 : Fin 2) * 256 + 1 * k.val = k.val; rw [e7]; omega)
  rw [hemb]
  refine block_entry (iblk m c 0 t) (iblk m c 1 t) (iblk m c 2 t) (points m c) (centres m c) p k
    ⟨t.val * 4096 + p.val, hr⟩ (fun j => ?_) (fun j o => ?_) (fun o => ?_)
  · exact points_blk m c t (ix2 p j) (ix2 (⟨t.val * 4096 + p.val, hr⟩ : Fin 262144) j) rfl rfl
  · exact (centresT_blk m c t (ix2 j o)).trans (centresT_at m c j o)
  · exact (normRow_blk m c t (ix2 (0 : Fin 1) o)).trans (normRow_at m c o)

/-! ## The blocks cover the array -/

/-- An index of the result is in grid point t's block iff each coordinate is in the block's range on its axis. -/
theorem mem_blk (t : Fin cfg0.N) (i : S262144x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v5).slice (win0_3.rect t)).set ↔ _
  rw [View.set_slice_whole, Rect.mem_set_unit]
  exact Iff.rfl

/-- Row r of the result is in the block of grid point r / 4096. -/
theorem cover (i : S262144x256.Idx) :
    ∃ t : Fin cfg0.N, (cfg0.win 3).flush t = true ∧ i ∈ ((cfg0.win 3).blk t).view.set := by
  have hN : cfg0.N = 64 := N_0
  have hi0 : (i 0).val < 262144 := (i 0).isLt
  have hi1 : (i 1).val < 256 := (i 1).isLt
  have ht : (i 0).val / 4096 < cfg0.N := by omega
  obtain ⟨-, -, -, -, -, -, e6, e7⟩ := index_facts ⟨(i 0).val / 4096, ht⟩
  refine ⟨⟨(i 0).val / 4096, ht⟩, flush0_3 _, ?_⟩
  rw [mem_blk]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    rw [e6]
    show (i 0).val / 4096 * 4096 ≤ (i 0).val ∧ (i 0).val < (i 0).val / 4096 * 4096 + 4096
    omega
  | ⟨1, _⟩ =>
    show win0_3.index ⟨(i 0).val / 4096, ht⟩ (1 : Fin 2) * 256 ≤ (i 1).val
      ∧ (i 1).val < win0_3.index ⟨(i 0).val / 4096, ht⟩ (1 : Fin 2) * 256 + 256
    rw [e7]
    omega

/-! ## The array after the run -/

/-- After the run the result array is the table of assignments of the launched point and centre matrices. -/
theorem final (c : Dev nD) : (dats m 0 c).arrAt 3 cfg0.N = table (points m c) (centres m c) :=
  (dats m 0 c).arrAt_eq_of_cover 3 (table (points m c) (centres m c)) (fun t _ => flushed_eq m c t) cover

/-- The kernel's run: every weakly fair execution terminates with the result at the table of assignments and the
    two arguments unchanged. -/
theorem run : θ_run defs (onTc (τ := τ) (main (F := Ideal))) ⟨m, fun _ => 0, ρ⟩ fun r => ∀ c : Dev nD,
      r.2.mem ((c : Thread nD τ).loc main_v5) = table (points m c) (centres m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue

end
-- ==== Proof.ReferenceValue.lean ====
/-
  The reference program computes the table of soft assignments.

  Read one operation at a time: the squares of x summed along each row and spread over the row give |x_p|²; the squares
  of c summed along each row, laid as one row and spread over all rows, give |c_o|²; contracting the columns of x with
  the columns of c gives ⟨x_p, c_o⟩.  The weight is formed pointwise and then raised to the power 1.0, which is the
  identity on the extended reals; the weights are summed along each row, spread back, and divided into the weights.
  The host's sums start from the word 0.0, which is the number 0.
-/
import proofs.«133006_j21105469293054_2_alg».proof.Proof.Gen.ReferenceIdeal.Read
import proofs.«133006_j21105469293054_2_alg».proof.Proof.SoftAssign

noncomputable section

namespace Cert.ReferenceIdeal.RefValue

open Cert.ReferenceIdeal Cert.ReferenceIdeal.Read Idealize.ShloMosaic Idealize.ShloMosaic.ValueIdx Cert.SoftAssign

variable (x : (⟨S262144x256, .f32⟩ : BufTy).Contents (Elt Ideal)) (c : (⟨S256x256, .f32⟩ : BufTy).Contents (Elt Ideal))

/-- |x_p|², spread over row p. -/
theorem sqnorm_at (p : Fin 262144) (o : Fin 256) :
    val_main_v9 (F := Ideal) x (ix2 p o) = ∑ j : Fin 256, (x (ix2 p j) : EReal) * x (ix2 p j) := by
  rw [val_main_v9_apply, val_main_v2_apply, val_main_v1_apply, val_main_cst_apply]
  show Ideal.ofBits .f32 0x00000000#32 + _ = _
  rw [Ideal.ofBits_zero_f32, zero_add]
  refine Finset.sum_congr rfl fun j _ => ?_
  rw [val_main_v0_apply]
  have e : idx_main_v1 (idx_main_v2 (idx_main_v9 (ix2 p o))) j = ix2 p j :=
    funext fun a => Fin.ext (by match a with | ⟨0, _⟩ => rfl | ⟨1, _⟩ => rfl)
  rw [e]
  rfl

/-- |c_o|², laid as one row and spread over every row. -/
theorem cnorm_at (p : Fin 262144) (o : Fin 256) :
    val_main_v11 (F := Ideal) c (ix2 p o) = ∑ j : Fin 256, (c (ix2 o j) : EReal) * c (ix2 o j) := by
  rw [val_main_v11_apply, val_main_v5_apply, val_main_v4_apply, val_main_cst_0_apply]
  show Ideal.ofBits .f32 0x00000000#32 + _ = _
  rw [Ideal.ofBits_zero_f32, zero_add]
  refine Finset.sum_congr rfl fun j _ => ?_
  rw [val_main_v3_apply]
  have e : idx_main_v4 (idx_main_v5 (idx_main_v11 (ix2 p o))) j = ix2 o j :=
    funext fun a => Fin.ext (by match a with | ⟨0, _⟩ => rfl | ⟨1, _⟩ => rfl)
  rw [e]
  rfl

/-- ⟨x_p, c_o⟩: the contraction of the columns of x with the columns of c. -/
theorem inner_at (p : Fin 262144) (o : Fin 256) :
    val_main_v6 (F := Ideal) x c (ix2 p o) = ∑ j : Fin 256, (x (ix2 p j) : EReal) * c (ix2 o j) := by
  rw [val_main_v6_apply]
  refine Finset.sum_congr rfl fun j _ => ?_
  have el : lidx_main_v6 (ix2 p o) j = ix2 p j :=
    funext fun a => Fin.ext (by match a with | ⟨0, _⟩ => rfl | ⟨1, _⟩ => rfl)
  have er : ridx_main_v6 (ix2 p o) j = ix2 o j :=
    funext fun a => Fin.ext (by match a with | ⟨0, _⟩ => rfl | ⟨1, _⟩ => rfl)
  rw [el, er]

/-- The weight of centre o for point p, after the power with exponent 1.0. -/
theorem weight_at (p : Fin 262144) (o : Fin 256) :
    val_main_v20 (F := Ideal) x c (ix2 p o)
      = weight (∑ j : Fin 256, (x (ix2 p j) : EReal) * x (ix2 p j)) (∑ j : Fin 256, (x (ix2 p j) : EReal) * c (ix2 o j))
          (∑ j : Fin 256, (c (ix2 o j) : EReal) * c (ix2 o j)) := by
  rw [val_main_v20_apply, val_main_v19_apply, val_main_cst_5_apply, val_main_v18_apply, val_main_v17_apply,
    val_main_cst_4_apply, val_main_v16_apply, val_main_v15_apply, val_main_cst_3_apply, val_main_v14_apply,
    val_main_v13_apply, val_main_cst_2_apply, val_main_v12_apply, val_main_v10_apply, val_main_v8_apply,
    val_main_v7_apply, val_main_cst_1_apply, sqnorm_at, inner_at, cnorm_at]
  exact pow_one _

/-- The reference's result is the table of assignments. -/
theorem result_eq : val_main_v24 (F := Ideal) x c = table x c := by
  funext i
  obtain ⟨p, k, rfl⟩ : ∃ (p : Fin 262144) (k : Fin 256), i = ix2 p k := ⟨i 0, i 1, eq_ix2 i⟩
  rw [val_main_v24_apply, val_main_v23_apply, val_main_v22_apply, val_main_v21_apply, val_main_cst_6_apply, weight_at]
  show Ideal.div _ (Ideal.ofBits .f32 0x00000000#32 + _) = _
  rw [Ideal.ofBits_zero_f32, zero_add]
  refine congrArg (Ideal.div _) (Finset.sum_congr rfl fun o _ => ?_)
  have e : idx_main_v21 (idx_main_v22 (idx_main_v23 (ix2 p k))) o = ix2 p o :=
    funext fun a => Fin.ext (by match a with | ⟨0, _⟩ => rfl | ⟨1, _⟩ => rfl)
  rw [e, weight_at]

end Cert.ReferenceIdeal.RefValue

end
-- ==== Proof.lean ====
/- The proof of `Cert.Claim` (proofs.«133006_j21105469293054_2_alg».proof.Defs).

   Both programs compute the table of soft assignments of 262144 points to 256 cluster centres by a Student-t kernel
   with one degree of freedom: entry (p, k) is w(p, k) / Σ_o w(p, o) with w(p, o) = 1 / (1 + d²(p, o) / 1) and
   d²(p, o) = |x_p|² − 2⟨x_p, c_o⟩ + |c_o|² (Proof/SoftAssign.lean).

   The kernel forms the transposed centre matrix and the row of squared norms on the host (Proof/HostPrefix.lean), and
   at each of 64 grid points computes 4096 rows of the table from 4096 rows of x: the inner products by a matrix product
   into a zero accumulator, the squared norms and the normalising sums by row reductions (Proof/BodyValue.lean); the
   blocks written are rows of one table and cover it (Proof/KernelValue.lean).  The reference forms the same sums on
   whole arrays and raises each weight to the power 1.0 before normalising, which changes nothing on the extended reals
   (Proof/ReferenceValue.lean).  On the extended reals the two are therefore one function of the arguments; no law used
   needs the inputs to be finite.

   The three frames are the generated ones: the two kernels' from their generated frame proofs, the reference's from
   its generated run.  The idealization rewrote no operation, so there is nothing to preserve. -/
import proofs.«133006_j21105469293054_2_alg».proof.Defs
import proofs.«133006_j21105469293054_2_alg».proof.Proof.Gen.Kernel
import proofs.«133006_j21105469293054_2_alg».proof.Proof.Gen.Kernel.Frame
import proofs.«133006_j21105469293054_2_alg».proof.Proof.Gen.KernelIdeal
import proofs.«133006_j21105469293054_2_alg».proof.Proof.Gen.KernelIdeal.Frame
import proofs.«133006_j21105469293054_2_alg».proof.Proof.Gen.ReferenceIdeal
import proofs.«133006_j21105469293054_2_alg».proof.Proof.Gen.KernelIdeal.Value
import proofs.«133006_j21105469293054_2_alg».proof.Proof.Gen.ReferenceIdeal.Run
import proofs.«133006_j21105469293054_2_alg».proof.Proof.Gen.ReferenceIdeal.Read
import proofs.«133006_j21105469293054_2_alg».proof.Proof.Gen.Pre_finite_inputs
import proofs.«133006_j21105469293054_2_alg».proof.Proof.KernelValue
import proofs.«133006_j21105469293054_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the two arguments, the kernel's result array and the reference's both end at the table
    of soft assignments of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
